-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S128x384 : Shape := ⟨2, ![128, 384]⟩
abbrev S128 : Shape := ⟨1, ![128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x96 .f32) (main_arg1 : IVec S800000 32) (main_arg2 : IVec S800000 32) (main_arg3 : FVec F S800000 .f32) (main_arg4 : FVec F S128x384 .f32) (main_arg5 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x384 .f32 := Host.absf main_arg4
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x96 : Shape := ⟨2, ![50000, 96]⟩
abbrev S800000 : Shape := ⟨1, ![800000]⟩
abbrev S128x384 : Shape := ⟨2, ![128, 384]⟩
abbrev S128 : Shape := ⟨1, ![128]⟩
abbrev S800000x1 : Shape := ⟨2, ![800000, 1]⟩
abbrev S_ : Shape := ⟨0, ![]⟩
abbrev S800000x96 : Shape := ⟨2, ![800000, 96]⟩
abbrev S128x96x4 : Shape := ⟨3, ![128, 96, 4]⟩
abbrev S4x128x96 : Shape := ⟨3, ![4, 128, 96]⟩
abbrev S50000x128 : Shape := ⟨2, ![50000, 128]⟩
abbrev S2000x96 : Shape := ⟨2, ![2000, 96]⟩
abbrev S2000x128 : Shape := ⟨2, ![2000, 128]⟩
abbrev S1x128x96 : Shape := ⟨3, ![1, 128, 96]⟩
abbrev S128x96 : Shape := ⟨2, ![128, 96]⟩
abbrev S96x128 : Shape := ⟨2, ![96, 128]⟩
abbrev S1x128 : Shape := ⟨2, ![1, 128]⟩

abbrev nBuf : Space → Nat
  | .hbm => 65
  | .vmem => 12
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x384, .f32⟩
  | .hbm, ⟨5, _⟩ => ⟨S128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S800000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x96, .f32⟩
  | .hbm, ⟨32, _⟩ => ⟨S800000x96, .f32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S_, .f32⟩
  | .hbm, ⟨39, _⟩ => ⟨S50000x96, .f32⟩
  | .hbm, ⟨40, _⟩ => ⟨S50000x96, .f32⟩
  | .hbm, ⟨41, _⟩ => ⟨S50000x96, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x96, .f32⟩
  | .hbm, ⟨52, _⟩ => ⟨S800000x96, .f32⟩
  | .hbm, ⟨53, _⟩ => ⟨S800000x96, .f32⟩
  | .hbm, ⟨54, _⟩ => ⟨S_, .f32⟩
  | .hbm, ⟨55, _⟩ => ⟨S50000x96, .f32⟩
  | .hbm, ⟨56, _⟩ => ⟨S800000x1, .i32⟩
  | .hbm, ⟨57, _⟩ => ⟨S50000x96, .f32⟩
  | .hbm, ⟨58, _⟩ => ⟨S_, .f32⟩
  | .hbm, ⟨59, _⟩ => ⟨S50000x96, .f32⟩
  | .hbm, ⟨60, _⟩ => ⟨S50000x96, .f32⟩
  | .hbm, ⟨61, _⟩ => ⟨S50000x96, .f32⟩
  | .hbm, ⟨62, _⟩ => ⟨S128x96x4, .f32⟩
  | .hbm, ⟨63, _⟩ => ⟨S4x128x96, .f32⟩
  | .hbm, ⟨64, _⟩ => ⟨S50000x128, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S4x128x96, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S128x384_S128x96x4 : S128x384.ShapeCasts S128x96x4
  transposes_S128x96x4_S4x128x96_2_0_1 : S128x96x4.Transposes [2, 0, 1] S4x128x96
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S4x128x96_S1x128x96_0_0_0 : ∀ a, (![0, 0, 0] : Fin 3 → Nat) a + S1x128x96.size a ≤ S4x128x96.size a
  h_S1x128x96 : 0 < S1x128x96.numel
  shapeCasts_S1x128x96_S128x96 : S1x128x96.ShapeCasts S128x96
  transposes_S128x96_p1_0_S96x128 : S128x96.Transposes [1, 0] S96x128
  shapeCasts_S2000x96_S2000x96 : S2000x96.ShapeCasts S2000x96
  inb_S4x128x96_S1x128x96_1_0_0 : ∀ a, (![1, 0, 0] : Fin 3 → Nat) a + S1x128x96.size a ≤ S4x128x96.size a
  inb_S4x128x96_S1x128x96_2_0_0 : ∀ a, (![2, 0, 0] : Fin 3 → Nat) a + S1x128x96.size a ≤ S4x128x96.size a
  inb_S4x128x96_S1x128x96_3_0_0 : ∀ a, (![3, 0, 0] : Fin 3 → Nat) a + S1x128x96.size a ≤ S4x128x96.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x128_S2000x128_1_0_0_1_n_n_wf : DotDims.WF S2000x96 S96x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .f32 = 32 ∨ (Rect.block (s := S50000x96) S2000x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x96.size a ≤ S4x128x96.size a
  hwx0_4 : ∀ i : grid0.Coords, EltTy.bits .f32 = 32 ∨ (Rect.block (s := S4x128x96) S4x128x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2000x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S4x128x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S128x384 : Shape := ⟨2, ![128, 384]⟩
abbrev S128 : Shape := ⟨1, ![128]⟩
abbrev S800000x1 : Shape := ⟨2, ![800000, 1]⟩
abbrev S_ : Shape := ⟨0, ![]⟩
abbrev S800000x96 : Shape := ⟨2, ![800000, 96]⟩
abbrev S50000x96x1 : Shape := ⟨3, ![50000, 96, 1]⟩
abbrev S50000x96x4 : Shape := ⟨3, ![50000, 96, 4]⟩
abbrev S50000x384 : Shape := ⟨2, ![50000, 384]⟩
abbrev S384x128 : Shape := ⟨2, ![384, 128]⟩
abbrev S50000x128 : Shape := ⟨2, ![50000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x384, .f32⟩
  | .hbm, ⟨5, _⟩ => ⟨S128, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S800000x1, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x96, .f32⟩
  | .hbm, ⟨32, _⟩ => ⟨S800000x96, .f32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S_, .f32⟩
  | .hbm, ⟨39, _⟩ => ⟨S50000x96, .f32⟩
  | .hbm, ⟨40, _⟩ => ⟨S50000x96, .f32⟩
  | .hbm, ⟨41, _⟩ => ⟨S50000x96, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x96, .f32⟩
  | .hbm, ⟨52, _⟩ => ⟨S800000x96, .f32⟩
  | .hbm, ⟨53, _⟩ => ⟨S800000x96, .f32⟩
  | .hbm, ⟨54, _⟩ => ⟨S_, .f32⟩
  | .hbm, ⟨55, _⟩ => ⟨S50000x96, .f32⟩
  | .hbm, ⟨56, _⟩ => ⟨S800000x1, .i32⟩
  | .hbm, ⟨57, _⟩ => ⟨S50000x96, .f32⟩
  | .hbm, ⟨58, _⟩ => ⟨S_, .f32⟩
  | .hbm, ⟨59, _⟩ => ⟨S50000x96, .f32⟩
  | .hbm, ⟨60, _⟩ => ⟨S50000x96, .f32⟩
  | .hbm, ⟨61, _⟩ => ⟨S50000x96, .f32⟩
  | .hbm, ⟨62, _⟩ => ⟨S50000x96x1, .f32⟩
  | .hbm, ⟨63, _⟩ => ⟨S50000x96x1, .f32⟩
  | .hbm, ⟨64, _⟩ => ⟨S50000x96x1, .f32⟩
  | .hbm, ⟨65, _⟩ => ⟨S50000x96x1, .f32⟩
  | .hbm, ⟨66, _⟩ => ⟨S50000x96x4, .f32⟩
  | .hbm, ⟨67, _⟩ => ⟨S50000x384, .f32⟩
  | .hbm, ⟨68, _⟩ => ⟨S384x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000x96_S50000x96x1_0_1 : S50000x96.BroadcastsInDim S50000x96x1 (![0, 1] : Fin 2 → Fin S50000x96x1.rank)
  concatenates_S50000x96x1_S50000x96x1_S50000x96x1_S50000x96x1_S50000x96x4_d2 : Shape.Concatenates [S50000x96x1, S50000x96x1, S50000x96x1, S50000x96x1] S50000x96x4 2
  shapeCasts_S50000x96x4_S50000x384 : S50000x96x4.ShapeCasts S50000x384
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x384_S384x128_S50000x128_1_0_0_1_n_n_wf : DotDims.WF S50000x384 S384x128 S50000x128 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Block.lean ====
/-
  What the kernel body stores, at one element of its 2000 × 128 output block.

  The body loads four 2000 × 96 blocks of node features (Chebyshev orders 0 to 3), the four 128 × 96 slices of the
  re-laid weights, and the bias; for each order it multiplies the feature block by the transposed weight slice into
  a zero accumulator, adds the four products up from a zero block, and adds the bias along the rows. Read at the
  ideal values the narrowing to bf16 before each product is the identity, so element (p, q) of the stored block is

      ((((0 + ∑ f, x0 p f · w0 q f) + ∑ f, x1 p f · w1 q f) + ∑ f, x2 p f · w2 q f) + ∑ f, x3 p f · w3 q f) + b q

  with f over the 96 features.
-/
import proofs.«180848_j34531537059970_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The product's operand indices: output (p, q) and contraction index k read the left operand at (p, k) and the
    right operand at (k, q) -/

theorem lhs_row (i : S2000x128.Idx) (k : dot_S2000x96_S96x128_S2000x128_1_0_0_1_n_n.contr.Idx) : (dot_S2000x96_S96x128_S2000x128_1_0_0_1_n_n.lhsIdx i k 0).val = (i 0).val := by
  unfold DotDims.lhsIdx
  rw [dif_neg (show ¬(0 : Fin S2000x96.rank) ∈ dot_S2000x96_S96x128_S2000x128_1_0_0_1_n_n.lhsBatch by decide),
    dif_pos (show (0 : Fin S2000x96.rank) ∈ dot_S2000x96_S96x128_S2000x128_1_0_0_1_n_n.lhsNonContracting by decide)]
  rfl
theorem lhs_col (i : S2000x128.Idx) (k : dot_S2000x96_S96x128_S2000x128_1_0_0_1_n_n.contr.Idx) : (dot_S2000x96_S96x128_S2000x128_1_0_0_1_n_n.lhsIdx i k 1).val = (k ⟨0, by decide⟩).val :=
  dot_S2000x96_S96x128_S2000x128_1_0_0_1_n_n.lhsIdx_val_of_single rfl i k
theorem rhs_row (i : S2000x128.Idx) (k : dot_S2000x96_S96x128_S2000x128_1_0_0_1_n_n.contr.Idx) : (dot_S2000x96_S96x128_S2000x128_1_0_0_1_n_n.rhsIdx i k 0).val = (k ⟨0, by decide⟩).val :=
  dot_S2000x96_S96x128_S2000x128_1_0_0_1_n_n.rhsIdx_val_of_single rfl i k
theorem rhs_col (i : S2000x128.Idx) (k : dot_S2000x96_S96x128_S2000x128_1_0_0_1_n_n.contr.Idx) : (dot_S2000x96_S96x128_S2000x128_1_0_0_1_n_n.rhsIdx i k 1).val = (i 1).val := by
  unfold DotDims.rhsIdx
  rw [dif_neg (show ¬(1 : Fin S96x128.rank) ∈ dot_S2000x96_S96x128_S2000x128_1_0_0_1_n_n.rhsBatch by decide),
    dif_pos (show (1 : Fin S96x128.rank) ∈ dot_S2000x96_S96x128_S2000x128_1_0_0_1_n_n.rhsNonContracting by decide)]
  rfl

/-- ONE ORDER'S PRODUCT at (p, q): row `p` of the (narrowed) feature block against row `q` of the weight slice — the
    slice is loaded with a leading unit axis, dropped, narrowed, transposed to 96 × 128 and contracted over its 96
    rows, into a zero accumulator. -/
theorem product_apply (l : FVec Ideal S2000x96 .bf16) (w : Vec Ideal S1x128x96 .f32) (p : Fin 2000) (q : Fin 128) :
    matmul dot_S2000x96_S96x128_S2000x128_1_0_0_1_n_n none l
        (transpose S96x128 [1, 0] (truncf .bf16 (shapeCast S128x96 w shapeCasts_S1x128x96_S128x96) bitsLt_bf16_f32)
          transposes_S128x96_p1_0_S96x128)
        (constant (F := Ideal) S2000x128 .f32 0x00000000#32) (ix2 p q)
      = ∑ f : Fin 96, l (ix2 p f) * w (ix3 (0 : Fin 1) q f) := by
  simp only [matmul]
  rw [Ideal.matmul_constant_zero_apply, ← Equiv.sum_comp (contrEquiv1 dot_S2000x96_S96x128_S2000x128_1_0_0_1_n_n 96 rfl rfl).symm]
  refine Finset.sum_congr rfl fun f _ => ?_
  have hf := contrEquiv1_symm_val dot_S2000x96_S96x128_S2000x128_1_0_0_1_n_n 96 rfl rfl f
  have el : dot_S2000x96_S96x128_S2000x128_1_0_0_1_n_n.lhsIdx (ix2 p q) ((contrEquiv1 dot_S2000x96_S96x128_S2000x128_1_0_0_1_n_n 96 rfl rfl).symm f) = ix2 p f :=
    funext fun a => Fin.ext (by
      match a with
      | ⟨0, _⟩ => exact lhs_row _ _
      | ⟨1, _⟩ => exact (lhs_col _ _).trans hf)
  have er : dot_S2000x96_S96x128_S2000x128_1_0_0_1_n_n.rhsIdx (ix2 p q) ((contrEquiv1 dot_S2000x96_S96x128_S2000x128_1_0_0_1_n_n 96 rfl rfl).symm f) = ix2 f q :=
    funext fun a => Fin.ext (by
      match a with
      | ⟨0, _⟩ => exact (rhs_row _ _).trans hf
      | ⟨1, _⟩ => exact rhs_col _ _)
  rw [el, er]
  refine congrArg (l (ix2 p f) * ·) ?_
  -- the transposed slice at (f, q) is the slice at (q, f), which is the loaded [1, 128, 96] block at (0, q, f)
  exact (transpose_apply [1, 0] (shapeCast S128x96 w shapeCasts_S1x128x96_S128x96) transposes_S128x96_p1_0_S96x128
      (ix2 f q) (ix2 q f) (fun b => match b with
        | ⟨0, _⟩ => rfl
        | ⟨1, _⟩ => rfl)).trans
    (shapeCast_apply w shapeCasts_S1x128x96_S128x96 (ix2 q f) (ix3 (0 : Fin 1) q f) (by
      rewrite [Shape.rowMajor_val_three, Shape.rowMajor_val_two]
      show ((0 : Nat) * 128 + q.val) * 96 + f.val = q.val * 96 + f.val
      omega))

/-- THE BIAS at (p, q): the 128 bias entries, given a leading unit axis and repeated down the 2000 rows. -/
theorem bias_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_apply _ broadcasts_S1x128_S2000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])).trans
  (shapeCast_apply b shapeCasts_S128_S1x128 (ix2 (0 : Fin 1) q) (ix1 q) (by
    rewrite [Shape.rowMajor_val_one, Shape.rowMajor_val_two]
    show q.val = (0 : Nat) * 128 + q.val
    omega))

/-- THE STORED BLOCK at (p, q), from the body's loads: the four orders' products added up from zero, plus the bias. -/
theorem stored_apply (x0 x1 x2 x3 : Vec Ideal S2000x96 .f32) (w0 w1 w2 w3 : Vec Ideal S1x128x96 .f32)
    (b : Vec Ideal S128 .f32) (p : Fin 2000) (q : Fin 128) :
    k0_pay1 (k0_pay2 x0 w0 x1 w1 x2 w2) (k0_pay3 x3) (k0_pay4 w3) (constant (F := Ideal) S2000x128 .f32 0x00000000#32) b (ix2 p q)
      = ((((0 + ∑ f : Fin 96, x0 (ix2 p f) * w0 (ix3 (0 : Fin 1) q f)) + ∑ f : Fin 96, x1 (ix2 p f) * w1 (ix3 (0 : Fin 1) q f))
          + ∑ f : Fin 96, x2 (ix2 p f) * w2 (ix3 (0 : Fin 1) q f)) + ∑ f : Fin 96, x3 (ix2 p f) * w3 (ix3 (0 : Fin 1) q f))
        + b (ix1 q) := by
  unfold k0_pay1 k0_pay2 k0_pay3 k0_pay4
  dsimp only
  -- the orders 1 to 3 are loaded through a cast to their own shape
  rw [shapeCast_self x1, shapeCast_self x2, shapeCast_self x3]
  show ((((Ideal.ofBits .f32 0x00000000#32 + _) + _) + _) + _) + _ = _
  rw [product_apply, product_apply, product_apply, product_apply, bias_apply, Ideal.ofBits_zero_f32]
  rfl

end Cert.KernelIdeal.Block

end
-- ==== Proof.ChebLinear.lean ====
/-
  The dense stage of a Chebyshev graph convolution, as one function of its six arrays.

  Four node-feature arrays `t 0 … t 3` (Chebyshev orders 0 to 3, each 50000 × 96) are interleaved along the feature
  axis into one 50000 × 384 array whose column `4 f + κ` is feature `f` of order `κ`; the result is that array
  times the transpose of a 128 × 384 weight matrix, plus a bias per output column:

      out n o = (∑ j < 384, t (j % 4) n (j / 4) · w o j) + b o.

  Summing the 384 columns order by order instead — four sums of 96 terms, added up from zero — gives the same
  extended real: the columns are only regrouped, and addition of extended reals is commutative and associative
  (no product is distributed, so nothing here asks the entries to be finite).
-/
import Idealize.ShloMosaic.Lib.ValueIdx
import Mathlib.Algebra.BigOperators.Fin

noncomputable section

open scoped BigOperators

namespace Cert.ChebLinear

open Idealize.ShloMosaic Idealize.ShloMosaic.ValueIdx

/-- Column `4 f + κ` of the interleaved feature axis: feature `f` of Chebyshev order `κ`. -/
def col (f : Fin 96) (κ : Fin 4) : Fin 384 := ⟨4 * f.val + κ.val, by have := f.isLt; have := κ.isLt; omega⟩

@[simp] theorem col_val (f : Fin 96) (κ : Fin 4) : (col f κ).val = 4 * f.val + κ.val := rfl

/-- Every column is `col f κ` for exactly one feature `f` and order `κ`: its quotient and remainder by four. -/
def colEquiv : Fin 96 × Fin 4 ≃ Fin 384 where
  toFun p := col p.1 p.2
  invFun j := (⟨j.val / 4, by have := j.isLt; omega⟩, ⟨j.val % 4, by omega⟩)
  left_inv p := by
    obtain ⟨f, κ⟩ := p
    have hf := f.isLt
    have hκ := κ.isLt
    refine Prod.ext (Fin.ext ?_) (Fin.ext ?_)
    · show (4 * f.val + κ.val) / 4 = f.val; omega
    · show (4 * f.val + κ.val) % 4 = κ.val; omega
  right_inv j := by
    apply Fin.ext
    show 4 * (j.val / 4) + j.val % 4 = j.val
    omega

/-- A sum over the 384 interleaved columns, regrouped by Chebyshev order: the four sums over the 96 features, added up
    from zero in the order 0, 1, 2, 3. -/
theorem sum_cols {M : Type} [AddCommMonoid M] (g : Fin 384 → M) :
    ∑ j, g j = (((0 + ∑ f, g (col f 0)) + ∑ f, g (col f 1)) + ∑ f, g (col f 2)) + ∑ f, g (col f 3) := by
  rw [← Equiv.sum_comp colEquiv g, Fintype.sum_prod_type]
  simp only [Fin.sum_univ_four, Finset.sum_add_distrib, zero_add]
  rfl

/-- One of four arrays, chosen by the Chebyshev order. -/
def order {X : Type} (t0 t1 t2 t3 : X) : Fin 4 → X
  | ⟨0, _⟩ => t0
  | ⟨1, _⟩ => t1
  | ⟨2, _⟩ => t2
  | ⟨3, _⟩ => t3

/-- THE RESULT: the interleaved features times the transposed weights, plus the bias. -/
def out (t0 t1 t2 t3 : (⟨2, ![50000, 96]⟩ : Shape).Idx → EReal) (w : (⟨2, ![128, 384]⟩ : Shape).Idx → EReal)
    (b : (⟨1, ![128]⟩ : Shape).Idx → EReal) : (⟨2, ![50000, 128]⟩ : Shape).Idx → EReal :=
  fun i => (∑ j : Fin 384, order t0 t1 t2 t3 ⟨j.val % 4, Nat.mod_lt _ (by decide)⟩ (ix2 (i 0) ⟨j.val / 4, by have := j.isLt; omega⟩)
      * w (ix2 (i 1) j)) + b (ix1 (i 1))

/-- The same result with the columns summed order by order, as four products of a 96-column block of features with a
    96-column block of weights, accumulated from zero. -/
theorem out_by_order (t0 t1 t2 t3 : (⟨2, ![50000, 96]⟩ : Shape).Idx → EReal) (w : (⟨2, ![128, 384]⟩ : Shape).Idx → EReal)
    (b : (⟨1, ![128]⟩ : Shape).Idx → EReal) (n : Fin 50000) (o : Fin 128) :
    out t0 t1 t2 t3 w b (ix2 n o)
      = ((((0 + ∑ f : Fin 96, t0 (ix2 n f) * w (ix2 o (col f 0))) + ∑ f : Fin 96, t1 (ix2 n f) * w (ix2 o (col f 1)))
          + ∑ f : Fin 96, t2 (ix2 n f) * w (ix2 o (col f 2))) + ∑ f : Fin 96, t3 (ix2 n f) * w (ix2 o (col f 3))) + b (ix1 o) := by
  unfold out
  rw [sum_cols]
  have hcol : ∀ (f : Fin 96) (κ : Fin 4), ((⟨(col f κ).val / 4, by have := (col f κ).isLt; omega⟩ : Fin 96) = f)
      ∧ ((⟨(col f κ).val % 4, Nat.mod_lt _ (by decide)⟩ : Fin 4) = κ) := fun f κ => by
    have hf := f.isLt
    have hκ := κ.isLt
    exact ⟨Fin.ext (by show (4 * f.val + κ.val) / 4 = f.val; omega), Fin.ext (by show (4 * f.val + κ.val) % 4 = κ.val; omega)⟩
  simp only [(hcol _ _).1, (hcol _ _).2]
  rfl

end Cert.ChebLinear

end
-- ==== Proof.Entry.lean ====
/-
  The arrays the kernel's region finds, as functions of the six arguments.

  Before the region the program computes, on the host, the Chebyshev orders 1, 2 and 3 of the node features
  (T1 = L x, T2 = 2 L T1 − x, T3 = 2 L T2 − T1, each product with the sparse operator L a gather of rows, a scaling
  and a scatter-add) and re-lays the 128 × 384 weights as four 128 × 96 slices, slice κ holding the columns
  4 f + κ. The reference computes the three orders by the very same operations, so the kernel's arrays ARE the
  reference's intermediate values of the same arguments — no element of a gather or a scatter is ever opened.
-/
import proofs.«180848_j34531537059970_1_alg».proof.Proof.Gen.KernelIdeal.Frame
import proofs.«180848_j34531537059970_1_alg».proof.Proof.Gen.ReferenceIdeal.Read
import proofs.«180848_j34531537059970_1_alg».proof.Proof.ChebLinear
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 4000000 in
/-- Order 1, `L x`: the kernel's host prefix and the reference write it by the same operations. -/
theorem order1 (c : Dev nD) :
    (V m c main_v12 : S50000x96.Idx → EReal)
      = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp
  rfl

set_option maxRecDepth 8192 in
set_option maxHeartbeats 4000000 in
/-- Order 2, `2 L T1 − x`. -/
theorem order2 (c : Dev nD) :
    (V m c main_v28 : S50000x96.Idx → EReal)
      = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp
  rfl

set_option maxRecDepth 8192 in
set_option maxHeartbeats 4000000 in
/-- Order 3, `2 L T2 − T1`. -/
theorem order3 (c : Dev nD) :
    (V m c main_v44 : S50000x96.Idx → EReal)
      = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp
  rfl

set_option maxRecDepth 8192 in
set_option maxHeartbeats 4000000 in
/-- The re-laid weights: the 128 × 384 matrix viewed 128 × 96 × 4, its last axis moved to the front. -/
theorem weights (c : Dev nD) :
    (V m c main_v46 : S4x128x96.Idx → EReal)
      = transpose S4x128x96 [2, 0, 1] (shapeCast S128x96x4 (m ((c : Thread nD τ).loc main_arg4)) shapeCasts_S128x384_S128x96x4)
          transposes_S128x96x4_S4x128x96_2_0_1 := by
  dsimp only [Gen.V, Gen.hostOps0]
  after_results_simp
  rfl

/-- Slice κ of the re-laid weights at (o, f) is the weight matrix at row `o`, column `4 f + κ`. -/
theorem weights_apply (c : Dev nD) (κ : Fin 4) (o : Fin 128) (f : Fin 96) :
    (V m c main_v46 : S4x128x96.Idx → EReal) (ix3 κ o f)
      = (m ((c : Thread nD τ).loc main_arg4) : S128x384.Idx → EReal) (ix2 o (Cert.ChebLinear.col f κ)) := by
  rw [weights]
  exact (transpose_apply [2, 0, 1] _ transposes_S128x96x4_S4x128x96_2_0_1 (ix3 κ o f) (ix3 o f κ) (fun b => match b with
      | ⟨0, _⟩ => rfl
      | ⟨1, _⟩ => rfl
      | ⟨2, _⟩ => rfl)).trans
    (shapeCast_apply _ shapeCasts_S128x384_S128x96x4 (ix3 o f κ) (ix2 o (Cert.ChebLinear.col f κ)) (by
      rewrite [Shape.rowMajor_val_two, Shape.rowMajor_val_three]
      show o.val * 384 + (4 * f.val + κ.val) = (o.val * 96 + f.val) * 4 + κ.val
      omega))

end Cert.KernelIdeal.Entry

end
-- ==== Proof.KernelDense.lean ====
/-
  The array the kernel leaves, as the dense stage of the Chebyshev convolution.

  The grid has 25 points; point `t` works on rows 2000 t … 2000 t + 1999. There it reads those rows of the four
  orders of node features, the whole of the re-laid weights and of the bias, and writes back those rows of the
  result. Element (p, q) of what it writes is the four orders' products of row `2000 t + p` with the weight slices'
  row `q`, added up from zero, plus the bias at `q`; slice κ's row `q` holds the weight matrix's row `q` at the
  columns `4 f + κ`, so this is element (2000 t + p, q) of the dense stage summed order by order — which is the dense
  stage itself, the 384 columns only regrouped. The 25 row blocks tile the 50000 rows, so after the run the result
  array is the dense stage of the arguments' four orders, weights and bias.
-/
import proofs.«180848_j34531537059970_1_alg».proof.Proof.Gen.KernelIdeal.Value
import proofs.«180848_j34531537059970_1_alg».proof.Proof.Block
import proofs.«180848_j34531537059970_1_alg».proof.Proof.Entry
import proofs.«180848_j34531537059970_1_alg».proof.Proof.ChebLinear

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Cert.ChebLinear
open Idealize.ShloMosaic.Pipeline (Dat)

variable (m : (ℓ : Loc nD τ sig) → Buf (Elt Ideal) ℓ) (ρ : Dev nD → PrngReg)

/-! ## What the body stores, from whole loaded blocks -/

theorem zeros1 : (![0] : Fin 1 → Nat) = fun _ => 0 := funext fun a => by
  match a with
  | ⟨0, _⟩ => rfl
theorem zeros2 : (![0, 0] : Fin 2 → Nat) = fun _ => 0 := funext fun a => by
  match a with
  | ⟨0, _⟩ => rfl
  | ⟨1, _⟩ => rfl

/-- The output block the body leaves, at (p, q): the feature blocks and the bias are loaded whole, weight slice κ is
    rows (κ, ·, ·) of the staged weights. -/
theorem block_apply (x0 x1 x2 x3 : Vec Ideal S2000x96 .f32) (x4 : Vec Ideal S4x128x96 .f32) (x5 : Vec Ideal S128 .f32)
    (p : Fin 2000) (q : Fin 128) :
    out0_6 x0 x1 x2 x3 x4 x5 (ix2 p q)
      = ((((0 + ∑ f : Fin 96, x0 (ix2 p f) * x4 (ix3 (0 : Fin 4) q f)) + ∑ f : Fin 96, x1 (ix2 p f) * x4 (ix3 (1 : Fin 4) q f))
          + ∑ f : Fin 96, x2 (ix2 p f) * x4 (ix3 (2 : Fin 4) q f)) + ∑ f : Fin 96, x3 (ix2 p f) * x4 (ix3 (3 : Fin 4) q f)) + x5 (ix1 q) := by
  unfold out0_6
  rw [View.canon_unit_zero zeros2]
  simp only [View.ld_unit_zero (S := S2000x96) zeros2, View.ld_unit_zero (S := S128) zeros1]
  rw [Block.stored_apply]
  have s0 : ∀ f : Fin 96, View.ld x4 r0_1 (ix3 (0 : Fin 1) q f) = x4 (ix3 (0 : Fin 4) q f) := fun f =>
    congrArg x4 (funext fun a => Fin.ext (by
      match a with
      | ⟨0, _⟩ => rfl
      | ⟨1, _⟩ => show 0 + 1 * q.val = q.val; omega
      | ⟨2, _⟩ => show 0 + 1 * f.val = f.val; omega))
  have s1 : ∀ f : Fin 96, View.ld x4 r0_2 (ix3 (0 : Fin 1) q f) = x4 (ix3 (1 : Fin 4) q f) := fun f =>
    congrArg x4 (funext fun a => Fin.ext (by
      match a with
      | ⟨0, _⟩ => rfl
      | ⟨1, _⟩ => show 0 + 1 * q.val = q.val; omega
      | ⟨2, _⟩ => show 0 + 1 * f.val = f.val; omega))
  have s2 : ∀ f : Fin 96, View.ld x4 r0_3 (ix3 (0 : Fin 1) q f) = x4 (ix3 (2 : Fin 4) q f) := fun f =>
    congrArg x4 (funext fun a => Fin.ext (by
      match a with
      | ⟨0, _⟩ => rfl
      | ⟨1, _⟩ => show 0 + 1 * q.val = q.val; omega
      | ⟨2, _⟩ => show 0 + 1 * f.val = f.val; omega))
  have s3 : ∀ f : Fin 96, View.ld x4 r0_4 (ix3 (0 : Fin 1) q f) = x4 (ix3 (3 : Fin 4) q f) := fun f =>
    congrArg x4 (funext fun a => Fin.ext (by
      match a with
      | ⟨0, _⟩ => rfl
      | ⟨1, _⟩ => show 0 + 1 * q.val = q.val; omega
      | ⟨2, _⟩ => show 0 + 1 * f.val = f.val; omega))
  simp only [s0, s1, s2, s3]

/-! ## Where each window's block sits at a grid point -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem idx5 : ∀ t : Fin cfg0.N, win0_5.index t (0 : Fin 1) = 0 :=
  (by decide +kernel : ∀ t : Fin grid0.N, win0_5.index t (0 : Fin 1) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Row `p` of point `t`'s block is row `2000 t + p` of the array. -/
def row (t : Fin cfg0.N) (p : Fin 2000) : Fin 50000 :=
  ⟨t.val * 2000 + p.val, by
    have ht : t.val < 25 := lt_of_lt_of_eq t.isLt (show cfg0.N = 25 from N_0)
    have := p.isLt
    omega⟩

/-- Input window 0's block at point `t`, read at (p, f): row `2000 t + p` of the whole array. -/
theorem feat0 (c : Dev nD) (t : Fin cfg0.N) (p : Fin 2000) (f : Fin 96) :
    iblk m c 0 t (ix2 p f) = ((m ((c : Thread nD τ).loc main_arg0)) : S50000x96.Idx → EReal) (ix2 (row t p) f) := by
  obtain ⟨h0, h1⟩ := idx0 t
  have e : ((cfg0.win 0).blk t).view.emb (ix2 p f) = ix2 (row t p) f := by
    funext a; apply Fin.ext
    match a with
    | ⟨0, _⟩ => show win0_0.index t (0 : Fin 2) * 2000 + 1 * p.val = t.val * 2000 + p.val; omega
    | ⟨1, _⟩ => show win0_0.index t (1 : Fin 2) * 96 + 1 * f.val = f.val; omega
  unfold iblk
  rw [View.read_apply, cast_eq, e]
  exact congrFun (V_main_arg0 m c) _

/-- Input window 1's block at point `t`, read at (p, f): row `2000 t + p` of the whole array. -/
theorem feat1 (c : Dev nD) (t : Fin cfg0.N) (p : Fin 2000) (f : Fin 96) :
    iblk m c 1 t (ix2 p f) = ((Cert.ReferenceIdeal.Read.val_main_v12 (F := Ideal) (m ((c : Thread nD τ).loc main_arg0)) (m ((c : Thread nD τ).loc main_arg1)) (m ((c : Thread nD τ).loc main_arg2)) (m ((c : Thread nD τ).loc main_arg3))) : S50000x96.Idx → EReal) (ix2 (row t p) f) := by
  obtain ⟨h0, h1⟩ := idx1 t
  have e : ((cfg0.win 1).blk t).view.emb (ix2 p f) = ix2 (row t p) f := by
    funext a; apply Fin.ext
    match a with
    | ⟨0, _⟩ => show win0_1.index t (0 : Fin 2) * 2000 + 1 * p.val = t.val * 2000 + p.val; omega
    | ⟨1, _⟩ => show win0_1.index t (1 : Fin 2) * 96 + 1 * f.val = f.val; omega
  unfold iblk
  rw [View.read_apply, cast_eq, e]
  exact congrFun (Entry.order1 m c) _

/-- Input window 2's block at point `t`, read at (p, f): row `2000 t + p` of the whole array. -/
theorem feat2 (c : Dev nD) (t : Fin cfg0.N) (p : Fin 2000) (f : Fin 96) :
    iblk m c 2 t (ix2 p f) = ((Cert.ReferenceIdeal.Read.val_main_v28 (F := Ideal) (m ((c : Thread nD τ).loc main_arg0)) (m ((c : Thread nD τ).loc main_arg1)) (m ((c : Thread nD τ).loc main_arg2)) (m ((c : Thread nD τ).loc main_arg3))) : S50000x96.Idx → EReal) (ix2 (row t p) f) := by
  obtain ⟨h0, h1⟩ := idx2 t
  have e : ((cfg0.win 2).blk t).view.emb (ix2 p f) = ix2 (row t p) f := by
    funext a; apply Fin.ext
    match a with
    | ⟨0, _⟩ => show win0_2.index t (0 : Fin 2) * 2000 + 1 * p.val = t.val * 2000 + p.val; omega
    | ⟨1, _⟩ => show win0_2.index t (1 : Fin 2) * 96 + 1 * f.val = f.val; omega
  unfold iblk
  rw [View.read_apply, cast_eq, e]
  exact congrFun (Entry.order2 m c) _

/-- Input window 3's block at point `t`, read at (p, f): row `2000 t + p` of the whole array. -/
theorem feat3 (c : Dev nD) (t : Fin cfg0.N) (p : Fin 2000) (f : Fin 96) :
    iblk m c 3 t (ix2 p f) = ((Cert.ReferenceIdeal.Read.val_main_v44 (F := Ideal) (m ((c : Thread nD τ).loc main_arg0)) (m ((c : Thread nD τ).loc main_arg1)) (m ((c : Thread nD τ).loc main_arg2)) (m ((c : Thread nD τ).loc main_arg3))) : S50000x96.Idx → EReal) (ix2 (row t p) f) := by
  obtain ⟨h0, h1⟩ := idx3 t
  have e : ((cfg0.win 3).blk t).view.emb (ix2 p f) = ix2 (row t p) f := by
    funext a; apply Fin.ext
    match a with
    | ⟨0, _⟩ => show win0_3.index t (0 : Fin 2) * 2000 + 1 * p.val = t.val * 2000 + p.val; omega
    | ⟨1, _⟩ => show win0_3.index t (1 : Fin 2) * 96 + 1 * f.val = f.val; omega
  unfold iblk
  rw [View.read_apply, cast_eq, e]
  exact congrFun (Entry.order3 m c) _

/-- The weights' block is the whole re-laid array at every point: slice κ at (q, f) is the weight matrix at row `q`,
    column `4 f + κ`. -/
theorem wts (c : Dev nD) (t : Fin cfg0.N) (κ : Fin 4) (q : Fin 128) (f : Fin 96) :
    iblk m c 4 t (ix3 κ q f) = ((m ((c : Thread nD τ).loc main_arg4)) : S128x384.Idx → EReal) (ix2 q (col f κ)) := by
  obtain ⟨h0, h1, h2⟩ := idx4 t
  have e : ((cfg0.win 4).blk t).view.emb (ix3 κ q f) = ix3 κ q f := by
    funext a; apply Fin.ext
    match a with
    | ⟨0, _⟩ => show win0_4.index t (0 : Fin 3) * 4 + 1 * κ.val = κ.val; omega
    | ⟨1, _⟩ => show win0_4.index t (1 : Fin 3) * 128 + 1 * q.val = q.val; omega
    | ⟨2, _⟩ => show win0_4.index t (2 : Fin 3) * 96 + 1 * f.val = f.val; omega
  unfold iblk
  rw [View.read_apply, cast_eq, e]
  exact Entry.weights_apply m c κ q f

/-- The bias's block is the whole bias at every point. -/
theorem bias (c : Dev nD) (t : Fin cfg0.N) (q : Fin 128) :
    iblk m c 5 t (ix1 q) = ((m ((c : Thread nD τ).loc main_arg5)) : S128.Idx → EReal) (ix1 q) := by
  have h0 := idx5 t
  have e : ((cfg0.win 5).blk t).view.emb (ix1 q) = ix1 q := by
    funext a; apply Fin.ext
    match a with
    | ⟨0, _⟩ => show win0_5.index t (0 : Fin 1) * 128 + 1 * q.val = q.val; omega
  unfold iblk
  rw [View.read_apply, cast_eq, e]
  exact congrFun (V_main_arg5 m c) _

/-! ## The result array -/

/-- THE RESULT: the dense stage of the arguments — the node features and their Chebyshev orders 1 to 3, the weights,
    the bias. -/
def result (c : Dev nD) : S50000x128.Idx → EReal :=
  out (m ((c : Thread nD τ).loc main_arg0)) (Cert.ReferenceIdeal.Read.val_main_v12 (F := Ideal) (m ((c : Thread nD τ).loc main_arg0)) (m ((c : Thread nD τ).loc main_arg1)) (m ((c : Thread nD τ).loc main_arg2)) (m ((c : Thread nD τ).loc main_arg3))) (Cert.ReferenceIdeal.Read.val_main_v28 (F := Ideal) (m ((c : Thread nD τ).loc main_arg0)) (m ((c : Thread nD τ).loc main_arg1)) (m ((c : Thread nD τ).loc main_arg2)) (m ((c : Thread nD τ).loc main_arg3))) (Cert.ReferenceIdeal.Read.val_main_v44 (F := Ideal) (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5))

/-- WHAT POINT `t` WRITES BACK is rows 2000 t … 2000 t + 1999 of the result. -/
theorem flushed_eq (c : Dev nD) (t : Fin cfg0.N) :
    (dats m 0 c).flushed 6 t = ((cfg0.win 6).blk t).view.read (Elt Ideal) (result m c) := by
  rw [Value.flushed6]
  funext j
  obtain ⟨p, q, rfl⟩ : ∃ (p : Fin 2000) (q : Fin 128), j = ix2 p q := ⟨j 0, j 1, eq_ix2 j⟩
  obtain ⟨h0, h1⟩ := idx6 t
  have e : ((cfg0.win 6).blk t).view.emb (ix2 p q) = ix2 (row t p) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  rw [View.read_apply, cast_eq, e]
  refine (block_apply _ _ _ _ _ _ p q).trans ?_
  unfold result
  rw [out_by_order]
  simp only [feat0 m c t, feat1 m c t, feat2 m c t, feat3 m c t, wts m c t, bias m c t]

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v47).slice (win0_6.rect t)).set ↔ _
  rw [View.set_slice_whole, Rect.mem_set_unit]
  exact Iff.rfl

/-- Every row is in some point's block: row `r` in point `r / 2000`'s. -/
theorem covered (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨h0, h1⟩ := idx6 t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the run is the result. -/
theorem final (c : Dev nD) : (dats m 0 c).arrAt 6 cfg0.N = result m c :=
  (dats m 0 c).arrAt_eq_of_cover 6 (result m c) (fun t _ => flushed_eq m c t) covered

/-- THE RUN: every weakly fair execution terminates with the result array at the dense stage of the arguments, the
    arguments unchanged. -/
theorem run : θ_run defs (onTc (τ := τ) (main (F := Ideal))) ⟨m, fun _ => 0, ρ⟩ fun r => ∀ c : Dev nD,
      r.2.mem ((c : Thread nD τ).loc main_v47) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Dense

end
-- ==== Proof.RefDense.lean ====
/-
  The reference's result, as the dense stage of the Chebyshev convolution.

  The reference stacks the four orders of node features along a new last axis (50000 × 96 × 4), flattens the last two
  axes — so column `4 f + κ` of the 50000 × 384 array is feature `f` of order `κ` —, multiplies by the transposed
  128 × 384 weights with one 384-term contraction, and adds the bias along the rows. Element (n, o) is therefore

      (∑ j < 384, T (j % 4) n (j / 4) · W o j) + b o,

  which is `ChebLinear.out` of the four orders, the weights and the bias. The orders 1 to 3 stay the reference's own
  intermediate values: what the gathers and scatter-adds inside them read is not opened.
-/
import proofs.«180848_j34531537059970_1_alg».proof.Proof.Gen.ReferenceIdeal.Read
import proofs.«180848_j34531537059970_1_alg».proof.Proof.ChebLinear
import Idealize.ShloMosaic.Lib.Pipeline.Value
import Idealize.ShloMosaic.Lib.ValueIdx

noncomputable section

open scoped BigOperators

namespace Cert.ReferenceIdeal.Dense

open Cert.ReferenceIdeal Cert.ReferenceIdeal.Read Idealize.ShloMosaic Idealize.ShloMosaic.ValueIdx Cert.ChebLinear

variable (x0 : (⟨S50000x96, .f32⟩ : BufTy).Contents (Elt Ideal)) (x1 x2 : (⟨S800000, .i32⟩ : BufTy).Contents (Elt Ideal))
  (x3 : (⟨S800000, .f32⟩ : BufTy).Contents (Elt Ideal))

/-- The stacked features at (n, f, κ): order κ at (n, f). Each of the four stacked pieces has extent one along the
    new axis, so piece κ sits at position κ. -/
theorem stacked_apply (n : Fin 50000) (f : Fin 96) (κ : Fin 4) :
    val_main_v49 (F := Ideal) x0 x1 x2 x3 (ix3 n f κ)
      = order x0 (val_main_v12 (F := Ideal) x0 x1 x2 x3) (val_main_v28 (F := Ideal) x0 x1 x2 x3) (val_main_v44 (F := Ideal) x0 x1 x2 x3) κ (ix2 n f) := by
  have hi : ∀ b : Fin S50000x96x1.rank, b.cast (rfl : S50000x96x1.rank = S50000x96x4.rank) ≠ (2 : Fin S50000x96x4.rank) →
      ((ix3 n f (0 : Fin 1) : S50000x96x1.Idx) b).val = ((ix3 n f κ : S50000x96x4.Idx) (b.cast rfl)).val := fun b hb => by
    match b with
    | ⟨0, _⟩ => rfl
    | ⟨1, _⟩ => rfl
    | ⟨2, _⟩ => exact absurd rfl hb
  have hidx : ∀ g : S50000x96x1.Idx → S50000x96.Idx, (∀ j, (g j 0).val = (j 0).val ∧ (g j 1).val = (j 1).val) →
      g (ix3 n f (0 : Fin 1)) = ix2 n f := fun g hg => funext fun a => Fin.ext (by
    match a with
    | ⟨0, _⟩ => exact (hg _).1
    | ⟨1, _⟩ => exact (hg _).2)
  unfold val_main_v49
  match κ with
  | ⟨0, _⟩ =>
    refine (concatenate_apply_piece (2 : Fin S50000x96x4.rank) _ _ (ix3 n f (0 : Fin 4)) 0 (by show (0 : Nat) < 4; decide) S50000x96x1 _ rfl rfl 0 rfl
      (ix3 n f (0 : Fin 1)) hi rfl).trans ?_
    rw [val_main_v45_apply, hidx idx_main_v45 (fun j => ⟨rfl, rfl⟩)]
    rfl
  | ⟨1, _⟩ =>
    refine (concatenate_apply_piece (2 : Fin S50000x96x4.rank) _ _ (ix3 n f (1 : Fin 4)) 1 (by show (1 : Nat) < 4; decide) S50000x96x1 _ rfl rfl 1 rfl
      (ix3 n f (0 : Fin 1)) hi rfl).trans ?_
    rw [val_main_v46_apply, hidx idx_main_v46 (fun j => ⟨rfl, rfl⟩)]
    rfl
  | ⟨2, _⟩ =>
    refine (concatenate_apply_piece (2 : Fin S50000x96x4.rank) _ _ (ix3 n f (2 : Fin 4)) 2 (by show (2 : Nat) < 4; decide) S50000x96x1 _ rfl rfl 2 rfl
      (ix3 n f (0 : Fin 1)) hi rfl).trans ?_
    rw [val_main_v47_apply, hidx idx_main_v47 (fun j => ⟨rfl, rfl⟩)]
    rfl
  | ⟨3, _⟩ =>
    refine (concatenate_apply_piece (2 : Fin S50000x96x4.rank) _ _ (ix3 n f (3 : Fin 4)) 3 (by show (3 : Nat) < 4; decide) S50000x96x1 _ rfl rfl 3 rfl
      (ix3 n f (0 : Fin 1)) hi rfl).trans ?_
    rw [val_main_v48_apply, hidx idx_main_v48 (fun j => ⟨rfl, rfl⟩)]
    rfl

variable (x4 : (⟨S128x384, .f32⟩ : BufTy).Contents (Elt Ideal)) (x5 : (⟨S128, .f32⟩ : BufTy).Contents (Elt Ideal))

/-- THE REFERENCE'S RESULT ARRAY is the dense stage of the four orders, the weights and the bias. -/
theorem result_eq :
    val_main_v55 (F := Ideal) x0 x1 x2 x3 x4 x5
      = out x0 (val_main_v12 (F := Ideal) x0 x1 x2 x3) (val_main_v28 (F := Ideal) x0 x1 x2 x3) (val_main_v44 (F := Ideal) x0 x1 x2 x3) x4 x5 := by
  funext i
  obtain ⟨n, o, rfl⟩ : ∃ (n : Fin 50000) (o : Fin 128), i = ix2 n o := ⟨i 0, i 1, eq_ix2 i⟩
  -- the bias is read at the column
  have eb : idx_main_v53 (idx_main_v54 (ix2 n o)) = ix1 o := funext fun a => Fin.ext (by match a with | ⟨0, _⟩ => rfl)
  -- the transposed weights at (k, column) are the weights at (column, k)
  have ew : ∀ k : Fin 384, idx_main_v51 (ridx_main_v52 (ix2 n o) k) = ix2 o k := fun k => funext fun a => Fin.ext (by
    match a with
    | ⟨0, _⟩ => rfl
    | ⟨1, _⟩ => rfl)
  -- the flattened features at (row, k) are the stacked ones at (row, k / 4, k % 4)
  have ex : ∀ k : Fin 384, idx_main_v50 (lidx_main_v52 (ix2 n o) k)
      = ix3 n (⟨k.val / 4, by have := k.isLt; omega⟩ : Fin 96) (⟨k.val % 4, Nat.mod_lt _ (by decide)⟩ : Fin 4) := fun k =>
    funext fun a => Fin.ext (by
      have h0 : n.val < 50000 := n.isLt
      have hk : k.val < 384 := k.isLt
      match a with
      | ⟨0, _⟩ => show (n.val * 384 + k.val) / 384 = n.val; omega
      | ⟨1, _⟩ => show (n.val * 384 + k.val) / 4 % 96 = k.val / 4; omega
      | ⟨2, _⟩ => show (n.val * 384 + k.val) % 4 = k.val % 4; omega)
  rw [val_main_v55_apply, val_main_v52_apply, val_main_v54_apply, val_main_v53_apply, eb]
  unfold out
  refine congrArg (· + x5 (ix1 o)) (Finset.sum_congr rfl fun k _ => ?_)
  rw [val_main_v50_apply, val_main_v51_apply, ex k, ew k, stacked_apply]

end Cert.ReferenceIdeal.Dense

end
-- ==== Proof.lean ====
/-
  A Chebyshev graph convolution's dense stage, computed blockwise on the accelerator, against the plain reference.

  Both programs first compute, on the host and by the same operations, the Chebyshev orders T0 = x, T1 = L x,
  T2 = 2 L T1 − x, T3 = 2 L T2 − T1 of the node features (L the sparse operator given by its rows, columns and values).
  The reference then interleaves the four orders along the feature axis (column 4 f + κ is feature f of order κ),
  multiplies by the transposed 128 × 384 weights in one 384-term contraction and adds the bias. The kernel instead
  re-lays the weights as four 128 × 96 slices (slice κ the columns 4 f + κ) and, for each block of 2000 rows,
  multiplies each order by its slice, adds the four products up from zero and adds the bias.

  At the ideal values both results are, element by element,

      out n o = (∑ j < 384, T (j % 4) n (j / 4) · W o j) + b o :

  the kernel sums the same 384 products grouped by order, and a finite sum of extended reals may be regrouped freely
  (addition is commutative and associative; no product is distributed over a sum, so the inputs' finiteness is never
  used). The narrowing of the operands to bf16 before each product is the identity at the ideal values.

  The three frames are the generated ones (the reference's is its generated run with the result dropped); the
  idealization rewrote no operation, so there is nothing to preserve; the two value statements are
  `Cert.KernelIdeal.Dense.run` and `Cert.ReferenceIdeal.Dense.result_eq`.
-/
import proofs.«180848_j34531537059970_1_alg».proof.Defs
import proofs.«180848_j34531537059970_1_alg».proof.Proof.Gen.Kernel
import proofs.«180848_j34531537059970_1_alg».proof.Proof.Gen.Kernel.Skeleton
import proofs.«180848_j34531537059970_1_alg».proof.Proof.Gen.Kernel.Launch
import proofs.«180848_j34531537059970_1_alg».proof.Proof.Gen.Kernel.Points
import proofs.«180848_j34531537059970_1_alg».proof.Proof.Gen.Kernel.Frame
import proofs.«180848_j34531537059970_1_alg».proof.Proof.Gen.KernelIdeal
import proofs.«180848_j34531537059970_1_alg».proof.Proof.Gen.KernelIdeal.Skeleton
import proofs.«180848_j34531537059970_1_alg».proof.Proof.Gen.KernelIdeal.Launch
import proofs.«180848_j34531537059970_1_alg».proof.Proof.Gen.KernelIdeal.Points
import proofs.«180848_j34531537059970_1_alg».proof.Proof.Gen.KernelIdeal.Frame
import proofs.«180848_j34531537059970_1_alg».proof.Proof.Gen.ReferenceIdeal
import proofs.«180848_j34531537059970_1_alg».proof.Proof.Gen.Pre_finite_inputs
import proofs.«180848_j34531537059970_1_alg».proof.Proof.Gen.KernelIdeal.Value
import proofs.«180848_j34531537059970_1_alg».proof.Proof.Gen.ReferenceIdeal.Run
import proofs.«180848_j34531537059970_1_alg».proof.Proof.Gen.ReferenceIdeal.Read
import proofs.«180848_j34531537059970_1_alg».proof.Proof.KernelDense
import proofs.«180848_j34531537059970_1_alg».proof.Proof.RefDense
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments, both programs end with the dense stage of those arguments in their
    result arrays: the kernel by its 25 row blocks, the reference by its one contraction. -/
theorem algebraic : Cert.algebraic_KernelIdeal_ReferenceIdeal := by
  intro m ρ m' ρ' _ hagree
  refine ⟨fun c => Cert.KernelIdeal.Dense.result m c, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.Dense.result_eq]
  obtain ⟨a0, a1, a2, a3, a4, a5⟩ := hagree c
  rw [a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
